-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x256 : Shape := ⟨2, ![8, 256]⟩
abbrev S256x2048 : Shape := ⟨2, ![256, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S256x2048 .f32) (main_arg5 : FVec F S2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x4096x2048 .f32) (main_arg1 : FVec F S8x256 .f32) (main_arg2 : FVec F S256x2048 .f32) (main_arg3 : FVec F S256x2048 .f32) (main_arg4 : FVec F S256x2048 .f32) (main_arg5 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_v13 main_v16
-- ==== Kernel.lean ====
abbrev S8x4096x2048 : Shape := ⟨3, ![8, 4096, 2048]⟩
abbrev S8x256 : Shape := ⟨2, ![8, 256]⟩
abbrev S256x2048 : Shape := ⟨2, ![256, 2048]⟩
abbrev S2048 : Shape := ⟨1, ![2048]⟩
abbrev S2048x256 : Shape := ⟨2, ![2048, 256]⟩
abbrev S8x256x1 : Shape := ⟨3, ![8, 256, 1]⟩
abbrev S1x256x2048 : Shape := ⟨3, ![1, 256, 2048]⟩
abbrev S8x256x2048 : Shape := ⟨3, ![8, 256, 2048]⟩
abbrev S8x2048 : Shape := ⟨2, ![8, 2048]⟩
abbrev S1x2048 : Shape := ⟨2, ![1, 2048]⟩
abbrev S8x1x2048 : Shape := ⟨3, ![8, 1, 2048]⟩
abbrev S1x1024x2048 : Shape := ⟨3, ![1, 1024, 2048]⟩
abbrev S1x1x2048 : Shape := ⟨3, ![1, 1, 2048]⟩
abbrev S1024x2048 : Shape := ⟨2, ![1024, 2048]⟩
abbrev S1024x256 : Shape := ⟨2, ![1024, 256]⟩

abbrev nBuf : Space → Nat
  | .hbm => 23
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S8x256, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048, .f32⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x256, .f32⟩
  | .hbm, ⟨10, _⟩ => ⟨S2048x256, .bf16⟩
  | .hbm, ⟨11, _⟩ => ⟨S8x256x1, .f32⟩
  | .hbm, ⟨12, _⟩ => ⟨S1x256x2048, .f32⟩
  | .hbm, ⟨13, _⟩ => ⟨S8x256x2048, .f32⟩
  | .hbm, ⟨14, _⟩ => ⟨S8x256x2048, .f32⟩
  | .hbm, ⟨15, _⟩ => ⟨S8x256x2048, .f32⟩
  | .hbm, ⟨16, _⟩ => ⟨S8x256x2048, .bf16⟩
  | .hbm, ⟨17, _⟩ => ⟨S8x2048, .f32⟩
  | .hbm, ⟨18, _⟩ => ⟨S1x2048, .f32⟩
  | .hbm, ⟨19, _⟩ => ⟨S8x2048, .f32⟩
  | .hbm, ⟨20, _⟩ => ⟨S8x2048, .f32⟩
  | .hbm, ⟨21, _⟩ => ⟨S8x1x2048, .f32⟩
  | .hbm, ⟨22, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x256, .bf16⟩
  | .local _ .vmem, ⟨3, _⟩ => ⟨S2048x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x1x2048, .f32⟩
  | .local _ .vmem, ⟨7, _⟩ => ⟨S1x1x2048, .f32⟩
  | .local _ .vmem, ⟨8, _⟩ => ⟨S1x1024x2048, .f32⟩
  | .local _ .vmem, ⟨9, _⟩ => ⟨S1x1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x2048_S2048x256_1_0 : S256x2048.Transposes [1, 0] S2048x256
  bitsLt_bf16_f32 : FTy.bits .bf16 < FTy.bits .f32
  bcast_S8x256_S8x256x1_0_1 : S8x256.BroadcastsInDim S8x256x1 (![0, 1] : Fin 2 → Fin S8x256x1.rank)
  bcast_S256x2048_S1x256x2048_1_2 : S256x2048.BroadcastsInDim S1x256x2048 (![1, 2] : Fin 2 → Fin S1x256x2048.rank)
  bcast_S8x256x1_S8x256x2048_0_1_2 : S8x256x1.BroadcastsInDim S8x256x2048 (![0, 1, 2] : Fin 3 → Fin S8x256x2048.rank)
  bcast_S1x256x2048_S8x256x2048_0_1_2 : S1x256x2048.BroadcastsInDim S8x256x2048 (![0, 1, 2] : Fin 3 → Fin S8x256x2048.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  shapeCasts_S8x2048_S8x1x2048 : S8x2048.ShapeCasts S8x1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  shapeCasts_S1024x2048_S1x1024x2048 : S1024x2048.ShapeCasts S1x1024x2048
  dot_S8x256_S256x2048_S8x2048_1_0_0_1_n_n_wf : DotDims.WF S8x256 S256x2048 S8x2048 [1] [0] [0] [1] [] []
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x256x2048.size a
  hwx0_3 : ∀ i : grid0.Coords, EltTy.bits .bf16 = 32 ∨ (Rect.block (s := S8x256x2048) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x4096x2048.size a
  hwx0_5 : ∀ i : grid0.Coords, EltTy.bits .f32 = 32 ∨ (Rect.block (s := S8x4096x2048) S1x1024x2048.size (cc0_transform_5 i) (hinb0_5 i)).WholeWords (EltTy.packing .f32)

variable [Facts₀]

def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x256 : Shape := ⟨2, ![8, 256]⟩
abbrev S256x2048 : Shape := ⟨2, ![256, 2048]⟩
abbrev S2048 : Shape := ⟨1, ![2048]⟩
abbrev S8x4096x256 : Shape := ⟨3, ![8, 4096, 256]⟩
abbrev S8x1x256 : Shape := ⟨3, ![8, 1, 256]⟩
abbrev S8x2048 : Shape := ⟨2, ![8, 2048]⟩
abbrev S1x2048 : Shape := ⟨2, ![1, 2048]⟩
abbrev S8x1x2048 : Shape := ⟨3, ![8, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x256, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048, .f32⟩
  | .hbm, ⟨6, _⟩ => ⟨S8x4096x256, .f32⟩
  | .hbm, ⟨7, _⟩ => ⟨S8x1x256, .f32⟩
  | .hbm, ⟨8, _⟩ => ⟨S8x4096x256, .f32⟩
  | .hbm, ⟨9, _⟩ => ⟨S8x4096x256, .f32⟩
  | .hbm, ⟨10, _⟩ => ⟨S8x4096x2048, .f32⟩
  | .hbm, ⟨11, _⟩ => ⟨S8x2048, .f32⟩
  | .hbm, ⟨12, _⟩ => ⟨S1x2048, .f32⟩
  | .hbm, ⟨13, _⟩ => ⟨S8x2048, .f32⟩
  | .hbm, ⟨14, _⟩ => ⟨S8x2048, .f32⟩
  | .hbm, ⟨15, _⟩ => ⟨S8x1x2048, .f32⟩
  | .hbm, ⟨16, _⟩ => ⟨S8x4096x2048, .f32⟩
  | .hbm, ⟨17, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8x256_S8x1x256_0_2 : S8x256.BroadcastsInDim S8x1x256 (![0, 2] : Fin 2 → Fin S8x1x256.rank)
  bcast_S8x1x256_S8x4096x256_0_1_2 : S8x1x256.BroadcastsInDim S8x4096x256 (![0, 1, 2] : Fin 3 → Fin S8x4096x256.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S8x1x2048_S8x4096x2048_0_1_2 : S8x1x2048.BroadcastsInDim S8x4096x2048 (![0, 1, 2] : Fin 3 → Fin S8x4096x2048.rank)
  dot_S8x4096x2048_S256x2048_S8x4096x256_2_1_01_0_n_n_wf : DotDims.WF S8x4096x2048 S256x2048 S8x4096x256 [2] [1] [0, 1] [0] [] []
  dot_S8x4096x256_S256x2048_S8x4096x2048_2_0_01_1_n_n_wf : DotDims.WF S8x4096x256 S256x2048 S8x4096x2048 [2] [0] [0, 1] [1] [] []
  dot_S8x256_S256x2048_S8x2048_1_0_0_1_n_n_wf : DotDims.WF S8x256 S256x2048 S8x2048 [1] [0] [0] [1] [] []

variable [Facts₀]

def dot_S8x4096x2048_S256x2048_S8x4096x256_2_1_01_0_n_n : DotDims S8x4096x2048 S256x2048 S8x4096x256 where
  lhsContracting := [2]
  rhsContracting := [1]
  lhsNonContracting := [0, 1]
  rhsNonContracting := [0]
  lhsBatch := []
  rhsBatch := []
  wf := dot_S8x4096x2048_S256x2048_S8x4096x256_2_1_01_0_n_n_wf
def dot_S8x4096x256_S256x2048_S8x4096x2048_2_0_01_1_n_n : DotDims S8x4096x256 S256x2048 S8x4096x2048 where
  lhsContracting := [2]
  rhsContracting := [0]
  lhsNonContracting := [0, 1]
  rhsNonContracting := [1]
  lhsBatch := []
  rhsBatch := []
  wf := dot_S8x4096x256_S256x2048_S8x4096x2048_2_0_01_1_n_n_wf
def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf

class Facts : Prop extends Facts₀ where

variable [Facts]
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Spec.lean ====
/-
  The layer as one function of its six argument arrays, on the extended reals.

  For a batch `b`, a sequence position `s` and an output column `k`:

    out[b,s,k] = ∑ p, ((∑ j, x[b,s,j] · left[p,j]) · sc[b,p]) · right[p,k]  +  (∑ p, sc[b,p] · bw[p,k] + bb[k]).

  The first summand projects the row `x[b,s,·]` on the 256 rows of `left`, scales coordinate `p` by the per-batch factor `sc[b,p]` and
  expands by `right`; the second is the per-batch bias row. `Out` is this function, index by index.

  A second arrangement of the same number scales `right` instead of the projection (`h · (sc · right)` for
  `(h · sc) · right`: associativity of the product, which the extended reals have without any side condition) and
  computes the projection against `left` twice, once with `left` and once with `left − left`. For an entry of `left`
  that is a real number the difference is `0`, its products vanish and the second projection adds `0`:
  `split_weight_sum`. An infinite entry would make the difference `⊤ − ⊤ = ⊥`, so the law is stated for real entries.
-/
import Idealize.ShloMosaic.Lib.ValueIdx
import Idealize.ShloMosaic.PureOps.Ideal.Laws
import proofs.«107561_j4561255268487_2_alg».proof.Proof.LibPlainDot

noncomputable section

namespace Cert.MetaLinear

open Idealize.ShloMosaic Idealize.ShloMosaic.ValueIdx Cert.Lib.PlainDot

/-- A row-by-column product at an index given by its two coordinates. -/
theorem rowsByCols_ix2 {M K N : ℕ} (l : (⟨2, ![M, K]⟩ : Shape).Idx → EReal) (r : (⟨2, ![K, N]⟩ : Shape).Idx → EReal)
    (a : Fin M) (b : Fin N) : rowsByCols l r (ix2 a b) = ∑ k : Fin K, l (ix2 a k) * r (ix2 k b) := rfl

/-- The bias row of batch `b` at column `k`: `∑ p, sc[b,p] · bw[p,k] + bb[k]`. -/
def biasAt (sc : (⟨2, ![8, 256]⟩ : Shape).Idx → EReal) (bw : (⟨2, ![256, 2048]⟩ : Shape).Idx → EReal)
    (bb : (⟨1, ![2048]⟩ : Shape).Idx → EReal) (b : Fin 8) (k : Fin 2048) : EReal :=
  (∑ p : Fin 256, sc (ix2 b p) * bw (ix2 p k)) + bb (ix1 k)

/-- The projection of row `(b, s)` of `x` on row `p` of `left`: `∑ j, x[b,s,j] · left[p,j]`. -/
def proj (x : (⟨3, ![8, 4096, 2048]⟩ : Shape).Idx → EReal) (left : (⟨2, ![256, 2048]⟩ : Shape).Idx → EReal)
    (b : Fin 8) (s : Fin 4096) (p : Fin 256) : EReal :=
  ∑ j : Fin 2048, x (ix3 b s j) * left (ix2 p j)

/-- The layer's result at `(b, s, k)`. -/
def outAt (x : (⟨3, ![8, 4096, 2048]⟩ : Shape).Idx → EReal) (sc : (⟨2, ![8, 256]⟩ : Shape).Idx → EReal)
    (left right bw : (⟨2, ![256, 2048]⟩ : Shape).Idx → EReal) (bb : (⟨1, ![2048]⟩ : Shape).Idx → EReal)
    (b : Fin 8) (s : Fin 4096) (k : Fin 2048) : EReal :=
  (∑ p : Fin 256, (proj x left b s p * sc (ix2 b p)) * right (ix2 p k)) + biasAt sc bw bb b k

/-- The layer's result array. -/
def Out (x : (⟨3, ![8, 4096, 2048]⟩ : Shape).Idx → EReal) (sc : (⟨2, ![8, 256]⟩ : Shape).Idx → EReal)
    (left right bw : (⟨2, ![256, 2048]⟩ : Shape).Idx → EReal) (bb : (⟨1, ![2048]⟩ : Shape).Idx → EReal) :
    (⟨3, ![8, 4096, 2048]⟩ : Shape).Idx → EReal :=
  fun i => outAt x sc left right bw bb (i 0) (i 1) (i 2)

theorem Out_apply (x : (⟨3, ![8, 4096, 2048]⟩ : Shape).Idx → EReal) (sc : (⟨2, ![8, 256]⟩ : Shape).Idx → EReal)
    (left right bw : (⟨2, ![256, 2048]⟩ : Shape).Idx → EReal) (bb : (⟨1, ![2048]⟩ : Shape).Idx → EReal)
    (b : Fin 8) (s : Fin 4096) (k : Fin 2048) :
    Out x sc left right bw bb (ix3 b s k) = outAt x sc left right bw bb b s k := rfl

/-- The projection computed against a weight split as `L + (L − L)`, then expanded by a pre-scaled matrix, is the
    projection scaled and expanded: for real weights `L − L = 0`, a product with `0` is `0`, and the product is
    associative. -/
theorem split_weight_sum {ι κ : Type} [Fintype ι] [Fintype κ] (X : ι → EReal) (L : ι → κ → EReal) (M R : κ → EReal)
    (hL : ∀ j p, L j p ≠ ⊤ ∧ L j p ≠ ⊥) :
    ∑ p, ((∑ j, X j * L j p) + (∑ j, X j * (L j p - L j p))) * (M p * R p)
      = ∑ p, ((∑ j, X j * L j p) * M p) * R p := by
  refine Finset.sum_congr rfl fun p _ => ?_
  have h0 : ∑ j, X j * (L j p - L j p) = 0 := Finset.sum_eq_zero fun j _ => by
    rw [EReal.sub_self (hL j p).1 (hL j p).2, mul_zero]
  rw [h0, add_zero, mul_assoc]

end Cert.MetaLinear

end
-- ==== Proof.Body.lean ====
/-
  The kernel body's one stored value, read at an index.

  At a grid point the body holds a `[1,1024,2048]` block of `x`, two `[2048,256]` weight arrays (the two summands of the
  split weight), a `[1,256,2048]` block of the pre-scaled expansion matrix and a `[1,1,2048]` bias row. Its three matrix
  products are plain row-by-column products into zero accumulators, so entry `(r, k)` of what it stores is

    ∑ p, ((∑ j, x[0,r,j] · w₁[j,p]) + (∑ j, x[0,r,j] · w₂[j,p])) · e[0,p,k]  +  bias[0,0,k]:

  the leading unit axes come and go by shape casts, the bias row is spread over the 1024 rows, and a change of float
  format is the identity on the extended reals.
-/
import proofs.«107561_j4561255268487_2_alg».proof.Proof.Gen.KernelIdeal.Skeleton
import proofs.«107561_j4561255268487_2_alg».proof.Proof.Spec
import Idealize.ShloMosaic.Lib.Pipeline.Value
import Idealize.ShloMosaic.Lib.ValueLayout

noncomputable section

namespace Cert.MetaLinear.Body

open Cert.KernelIdeal Cert.KernelIdeal.Gen Idealize.ShloMosaic Idealize.ShloMosaic.ValueIdx Cert.Lib.PlainDot Cert.MetaLinear

/-- The stored value at `(u, r, k)`, from the five loaded blocks. -/
theorem pay_apply (x0 : Vec Ideal S1x1024x2048 .f32) (x1 x2 : Vec Ideal S2048x256 .bf16) (x3 : Vec Ideal S1x256x2048 .bf16)
    (x4 : Vec Ideal S1x1x2048 .f32) (u : Fin 1) (r : Fin 1024) (k : Fin 2048) :
    k0_pay1 x0 x1 x2 x3 x4 (ix3 u r k)
      = (∑ p : Fin 256, ((∑ j : Fin 2048, x0 (ix3 (0 : Fin 1) r j) * x1 (ix2 j p))
            + (∑ j : Fin 2048, x0 (ix3 (0 : Fin 1) r j) * x2 (ix2 j p))) * x3 (ix3 (0 : Fin 1) p k))
          + x4 (ix3 (0 : Fin 1) (0 : Fin 1) k) := by
  unfold k0_pay1
  simp only [matmul]
  rw [matmul_zero_eq dot_S1024x256_S256x2048_S1024x2048_1_0_0_1_n_n rfl]
  simp only [matmul_zero_eq dot_S1024x2048_S2048x256_S1024x256_1_0_0_1_n_n rfl]
  rw [shapeCast_ab_1ab_apply, addf_apply, rowsByCols_ix2, broadcastTo_1b_ab_apply, shapeCast_1ab_ab_apply]
  refine congrArg (· + _) (Finset.sum_congr rfl fun p _ => ?_)
  rw [truncf_apply, addf_apply, rowsByCols_ix2, rowsByCols_ix2, shapeCast_1ab_ab_apply]
  refine congrArg (· * _) (congrArg₂ (· + ·) (Finset.sum_congr rfl fun j _ => ?_) (Finset.sum_congr rfl fun j _ => ?_))
  · rw [truncf_apply, shapeCast_1ab_ab_apply, shapeCast_self]
  · rw [truncf_apply, shapeCast_1ab_ab_apply, shapeCast_self]

end Cert.MetaLinear.Body

end
-- ==== Proof.HostSide.lean ====
/-
  What the kernel's host operations leave in the four computed arrays its region reads.

  Before the region the program transposes `left` into a `[2048,256]` array `w₁`, forms `w₂ = w₁ − w₁` (through a
  round trip of float formats, the identity here), multiplies `sc` spread over the columns with `right` spread over the
  batches into a `[8,256,2048]` array `e`, and recasts the `[8,2048]` bias array to `[8,1,2048]`. Read at an index:

    w₁[j,p] = left[p,j],   w₂[j,p] = left[p,j] − left[p,j],   e[b,p,k] = sc[b,p] · right[p,k],
    bias[b,0,k] = ∑ p, sc[b,p] · bw[p,k] + bb[k].
-/
import proofs.«107561_j4561255268487_2_alg».proof.Proof.Gen.KernelIdeal.Frame
import proofs.«107561_j4561255268487_2_alg».proof.Proof.Spec
import Idealize.ShloMosaic.Lib.StableHlo.Run
import Idealize.ShloMosaic.Lib.Pipeline.Value
import Idealize.ShloMosaic.Lib.ValueLayout

noncomputable section

namespace Cert.MetaLinear.HostSide

open Cert.KernelIdeal Cert.KernelIdeal.Gen Idealize.ShloMosaic Idealize.ShloMosaic.TcCoe Idealize.SL.Sem
open Idealize.ShloMosaic.ValueIdx Idealize.ShloMosaic.StableHlo Cert.Lib.PlainDot Cert.MetaLinear

variable (m : (ℓ : Loc nD τ sig) → Buf (Elt Ideal) ℓ)

/-- The six argument arrays on core `c`, as launched. -/
abbrev aX (c : Dev nD) : FVec Ideal S8x4096x2048 .f32 := m ((c : Thread nD τ).loc main_arg0)
abbrev aSc (c : Dev nD) : FVec Ideal S8x256 .f32 := m ((c : Thread nD τ).loc main_arg1)
abbrev aLeft (c : Dev nD) : FVec Ideal S256x2048 .f32 := m ((c : Thread nD τ).loc main_arg2)
abbrev aRight (c : Dev nD) : FVec Ideal S256x2048 .f32 := m ((c : Thread nD τ).loc main_arg3)
abbrev aBw (c : Dev nD) : FVec Ideal S256x2048 .f32 := m ((c : Thread nD τ).loc main_arg4)
abbrev aBb (c : Dev nD) : FVec Ideal S2048 .f32 := m ((c : Thread nD τ).loc main_arg5)

/-! ## The first weight: `left` transposed -/

theorem V_w1 (c : Dev nD) : (V m c main_v1 : S2048x256.Idx → EReal)
    = truncf .bf16 (transpose S2048x256 [1, 0] (aLeft m c) transposes_S256x2048_S2048x256_1_0) bitsLt_bf16_f32 := by
  dsimp only [Gen.V, Gen.hostOps0]; after_results

theorem w1_apply (c : Dev nD) (j : Fin 2048) (p : Fin 256) :
    (V m c main_v1 : S2048x256.Idx → EReal) (ix2 j p) = aLeft m c (ix2 p j) := by
  rw [V_w1, truncf_apply, transpose_ix2_apply]

/-! ## The second weight: the transposed `left` minus itself -/

theorem V_w2 (c : Dev nD) : (V m c main_v4 : S2048x256.Idx → EReal)
    = truncf .bf16 (subf (transpose S2048x256 [1, 0] (aLeft m c) transposes_S256x2048_S2048x256_1_0)
        (extf .f32 (truncf .bf16 (transpose S2048x256 [1, 0] (aLeft m c) transposes_S256x2048_S2048x256_1_0) bitsLt_bf16_f32)
          bitsLt_bf16_f32)) bitsLt_bf16_f32 := by
  dsimp only [Gen.V, Gen.hostOps0]; after_results

theorem w2_apply (c : Dev nD) (j : Fin 2048) (p : Fin 256) :
    (V m c main_v4 : S2048x256.Idx → EReal) (ix2 j p) = aLeft m c (ix2 p j) - aLeft m c (ix2 p j) := by
  rw [V_w2, truncf_apply, subf_apply, extf_apply, truncf_apply, transpose_ix2_apply]

/-! ## The expansion matrix scaled per batch -/

theorem V_e (c : Dev nD) : (V m c main_v10 : S8x256x2048.Idx → EReal)
    = truncf .bf16 (mulf
        (broadcastInDim S8x256x2048 ![0, 1, 2] bcast_S8x256x1_S8x256x2048_0_1_2
          (broadcastInDim S8x256x1 ![0, 1] bcast_S8x256_S8x256x1_0_1 (aSc m c)))
        (broadcastInDim S8x256x2048 ![0, 1, 2] bcast_S1x256x2048_S8x256x2048_0_1_2
          (broadcastInDim S1x256x2048 ![1, 2] bcast_S256x2048_S1x256x2048_1_2 (aRight m c)))) bitsLt_bf16_f32 := by
  dsimp only [Gen.V, Gen.hostOps0]; after_results

/-- `sc` spread over the columns: `[8,256] → [8,256,1] → [8,256,2048]` at `(b, p, k)` is `sc[b,p]`. -/
theorem sc_spread (y : FVec Ideal S8x256 .f32) (b : Fin 8) (p : Fin 256) (k : Fin 2048) :
    broadcastInDim S8x256x2048 ![0, 1, 2] bcast_S8x256x1_S8x256x2048_0_1_2
      (broadcastInDim S8x256x1 ![0, 1] bcast_S8x256_S8x256x1_0_1 y) (ix3 b p k) = y (ix2 b p) := by
  refine (broadcastInDim_apply _ bcast_S8x256x1_S8x256x2048_0_1_2 _ (ix3 b p k) (ix3 b p (0 : Fin 1)) (fun a => ?_)).trans ?_
  · match a with
    | ⟨0, _⟩ => show b.val = if (8 : Nat) = 1 then 0 else b.val; rw [if_neg (by decide)]
    | ⟨1, _⟩ => show p.val = if (256 : Nat) = 1 then 0 else p.val; rw [if_neg (by decide)]
    | ⟨2, _⟩ => show 0 = if (1 : Nat) = 1 then 0 else k.val; rw [if_pos rfl]
  · refine broadcastInDim_apply _ bcast_S8x256_S8x256x1_0_1 y (ix3 b p (0 : Fin 1)) (ix2 b p) (fun a => ?_)
    match a with
    | ⟨0, _⟩ => show b.val = if (8 : Nat) = 1 then 0 else b.val; rw [if_neg (by decide)]
    | ⟨1, _⟩ => show p.val = if (256 : Nat) = 1 then 0 else p.val; rw [if_neg (by decide)]

/-- `right` spread over the batches: `[256,2048] → [1,256,2048] → [8,256,2048]` at `(b, p, k)` is `right[p,k]`. -/
theorem right_spread (y : FVec Ideal S256x2048 .f32) (b : Fin 8) (p : Fin 256) (k : Fin 2048) :
    broadcastInDim S8x256x2048 ![0, 1, 2] bcast_S1x256x2048_S8x256x2048_0_1_2
      (broadcastInDim S1x256x2048 ![1, 2] bcast_S256x2048_S1x256x2048_1_2 y) (ix3 b p k) = y (ix2 p k) := by
  refine (broadcastInDim_apply _ bcast_S1x256x2048_S8x256x2048_0_1_2 _ (ix3 b p k) (ix3 (0 : Fin 1) p k) (fun a => ?_)).trans ?_
  · match a with
    | ⟨0, _⟩ => show 0 = if (1 : Nat) = 1 then 0 else b.val; rw [if_pos rfl]
    | ⟨1, _⟩ => show p.val = if (256 : Nat) = 1 then 0 else p.val; rw [if_neg (by decide)]
    | ⟨2, _⟩ => show k.val = if (2048 : Nat) = 1 then 0 else k.val; rw [if_neg (by decide)]
  · refine broadcastInDim_apply _ bcast_S256x2048_S1x256x2048_1_2 y (ix3 (0 : Fin 1) p k) (ix2 p k) (fun a => ?_)
    match a with
    | ⟨0, _⟩ => show p.val = if (256 : Nat) = 1 then 0 else p.val; rw [if_neg (by decide)]
    | ⟨1, _⟩ => show k.val = if (2048 : Nat) = 1 then 0 else k.val; rw [if_neg (by decide)]

theorem e_apply (c : Dev nD) (b : Fin 8) (p : Fin 256) (k : Fin 2048) :
    (V m c main_v10 : S8x256x2048.Idx → EReal) (ix3 b p k) = aSc m c (ix2 b p) * aRight m c (ix2 p k) := by
  rw [V_e, truncf_apply, mulf_apply, sc_spread, right_spread]

/-! ## The bias rows -/

theorem V_bias (c : Dev nD) : (V m c main_v15 : S8x1x2048.Idx → EReal)
    = shapeCast S8x1x2048 (addf
        (Host.dotGeneral dot_S8x256_S256x2048_S8x2048_1_0_0_1_n_n none (aSc m c) (aBw m c))
        (broadcastInDim S8x2048 ![0, 1] bcast_S1x2048_S8x2048_0_1
          (broadcastInDim S1x2048 ![1] bcast_S2048_S1x2048_1 (aBb m c)))) shapeCasts_S8x2048_S8x1x2048 := by
  dsimp only [Gen.V, Gen.hostOps0]; after_results; rfl

/-- A vector spread over the rows: `[2048] → [1,2048] → [8,2048]` at `(b, k)` is the vector at `k`. -/
theorem bb_spread (y : FVec Ideal S2048 .f32) (b : Fin 8) (k : Fin 2048) :
    broadcastInDim S8x2048 ![0, 1] bcast_S1x2048_S8x2048_0_1
      (broadcastInDim S1x2048 ![1] bcast_S2048_S1x2048_1 y) (ix2 b k) = y (ix1 k) := by
  refine (broadcastInDim_apply _ bcast_S1x2048_S8x2048_0_1 _ (ix2 b k) (ix2 (0 : Fin 1) k) (fun a => ?_)).trans ?_
  · match a with
    | ⟨0, _⟩ => show 0 = if (1 : Nat) = 1 then 0 else b.val; rw [if_pos rfl]
    | ⟨1, _⟩ => show k.val = if (2048 : Nat) = 1 then 0 else k.val; rw [if_neg (by decide)]
  · refine broadcastInDim_apply _ bcast_S2048_S1x2048_1 y (ix2 (0 : Fin 1) k) (ix1 k) (fun a => ?_)
    match a with
    | ⟨0, _⟩ => show k.val = if (2048 : Nat) = 1 then 0 else k.val; rw [if_neg (by decide)]

theorem bias_apply (c : Dev nD) (b : Fin 8) (u : Fin 1) (k : Fin 2048) :
    (V m c main_v15 : S8x1x2048.Idx → EReal) (ix3 b u k) = biasAt (aSc m c) (aBw m c) (aBb m c) b k := by
  rw [V_bias]
  refine (shapeCast_apply _ shapeCasts_S8x2048_S8x1x2048 (ix3 b u k) (ix2 b k) ?_).trans ?_
  · rw [Shape.rowMajor_val_two, Shape.rowMajor_val_three]
    show b.val * 2048 + k.val = (b.val * 1 + u.val) * 2048 + k.val
    have := u.isLt
    omega
  · rw [addf_apply, bb_spread]
    simp only [Host.dotGeneral]
    rw [dotGeneral_eq dot_S8x256_S256x2048_S8x2048_1_0_0_1_n_n rfl, rowsByCols_ix2]
    rfl

end Cert.MetaLinear.HostSide

end
-- ==== Proof.Blocks.lean ====
/-
  From the grid's blocks to the whole result array.

  The grid has 8 × 4 points; point `(b, q)` works on batch `b` and on rows `1024·q … 1024·q + 1023` of the sequence axis.
  There it reads that `[1,1024,2048]` block of `x`, both weight arrays whole, block `b` of the scaled expansion matrix
  and row `b` of the bias, and writes back the `[1,1024,2048]` block `(b, q, 0)` of the result. Reading each input block
  where the index maps place it, the value written at `(0, r, k)` is `Out` at `(b, 1024·q + r, k)` — for the
  projection by the split-weight law, which needs the entries of `left` real. The 32 output blocks tile the result
  array (the block of row `s` is `q = s / 1024`), so the array ends holding `Out` of the arguments.
-/
import proofs.«107561_j4561255268487_2_alg».proof.Proof.Gen.KernelIdeal.Value
import proofs.«107561_j4561255268487_2_alg».proof.Proof.Body
import proofs.«107561_j4561255268487_2_alg».proof.Proof.HostSide

noncomputable section

namespace Cert.MetaLinear.Blocks

open Cert.KernelIdeal Cert.KernelIdeal.Gen Idealize.ShloMosaic Idealize.ShloMosaic.TcCoe Idealize.SL.Sem
open Idealize.ShloMosaic.Pipeline (Dat)
open Idealize.ShloMosaic.ValueIdx Cert.MetaLinear Cert.MetaLinear.HostSide Cert.MetaLinear.Body

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 grid points: the block of `x` moves with the output block, the weights stay at
    block `(0, 0)`, the expansion matrix and the bias follow the output's batch coordinate. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 8 ∧ win0_5.index t (1 : Fin 3) < 4 :=
  (by decide +kernel : ∀ t : Fin grid0.N, _)

/-- Every output block `(b, q, 0)` is some point's. -/
theorem idx_onto : ∀ (b : Fin 8) (q : Fin 4), ∃ t : Fin cfg0.N, win0_5.index t = ![b.val, q.val, 0] :=
  (by decide +kernel : ∀ (b : Fin 8) (q : Fin 4), ∃ t : Fin grid0.N, win0_5.index t = ![b.val, q.val, 0])

/-- `outAt` at equal coordinates. -/
theorem outAt_congr (x : (⟨3, ![8, 4096, 2048]⟩ : Shape).Idx → EReal) (sc : (⟨2, ![8, 256]⟩ : Shape).Idx → EReal)
    (left right bw : (⟨2, ![256, 2048]⟩ : Shape).Idx → EReal) (bb : (⟨1, ![2048]⟩ : Shape).Idx → EReal)
    {b b' : Fin 8} {s s' : Fin 4096} {k k' : Fin 2048} (hb : b = b') (hs : s = s') (hk : k = k') :
    outAt x sc left right bw bb b s k = outAt x sc left right bw bb b' s' k' := by
  subst hb; subst hs; subst hk; rfl

/-- The stored value of a point whose loaded blocks are: rows `o … o + 1023` of batch `b` of `x`, the transposed `left`,
    the transposed `left` minus itself, `sc[b,·] · right` and the bias row of batch `b` — is `Out` on those rows. -/
theorem point_value (x : (⟨3, ![8, 4096, 2048]⟩ : Shape).Idx → EReal) (sc : (⟨2, ![8, 256]⟩ : Shape).Idx → EReal)
    (left right bw : (⟨2, ![256, 2048]⟩ : Shape).Idx → EReal) (bb : (⟨1, ![2048]⟩ : Shape).Idx → EReal)
    (hL : ∀ i, left i ≠ ⊤ ∧ left i ≠ ⊥) (b : Fin 8) (row : Fin 1024 → Fin 4096)
    (x0 : Vec Ideal S1x1024x2048 .f32) (x1 x2 : Vec Ideal S2048x256 .bf16) (x3 : Vec Ideal S1x256x2048 .bf16)
    (x4 : Vec Ideal S1x1x2048 .f32)
    (h0 : ∀ (r : Fin 1024) (j : Fin 2048), x0 (ix3 (0 : Fin 1) r j) = x (ix3 b (row r) j))
    (h1 : ∀ (j : Fin 2048) (p : Fin 256), x1 (ix2 j p) = left (ix2 p j))
    (h2 : ∀ (j : Fin 2048) (p : Fin 256), x2 (ix2 j p) = left (ix2 p j) - left (ix2 p j))
    (h3 : ∀ (p : Fin 256) (k : Fin 2048), x3 (ix3 (0 : Fin 1) p k) = sc (ix2 b p) * right (ix2 p k))
    (h4 : ∀ k : Fin 2048, x4 (ix3 (0 : Fin 1) (0 : Fin 1) k) = biasAt sc bw bb b k)
    (u : Fin 1) (r : Fin 1024) (k : Fin 2048) :
    k0_pay1 x0 x1 x2 x3 x4 (ix3 u r k) = outAt x sc left right bw bb b (row r) k := by
  rw [pay_apply]
  simp only [h0, h1, h2, h3, h4]
  unfold outAt proj
  exact congrArg (· + _) (split_weight_sum (fun j : Fin 2048 => x (ix3 b (row r) j)) (fun (j : Fin 2048) (p : Fin 256) => left (ix2 p j))
    (fun p : Fin 256 => sc (ix2 b p)) (fun p : Fin 256 => right (ix2 p k)) (fun j p => hL _))

/-- What point `t` writes back is block `t` of `Out` of the argument arrays. -/
theorem flushed_eq (c : Dev nD) (hL : ∀ i, aLeft m c i ≠ ⊤ ∧ aLeft m c i ≠ ⊥) (t : Fin cfg0.N) :
    (dats m 0 c).flushed 5 t
      = ((cfg0.win 5).blk t).view.read (Elt Ideal) (Out (aX m c) (aSc m c) (aLeft m c) (aRight m c) (aBw m c) (aBb m c)) := by
  rw [Cert.KernelIdeal.Value.flushed5]
  unfold out0_5
  rw [View.canon_unit_zero hz3]
  simp only [View.ld_unit_zero (S := S1x1024x2048) hz3, View.ld_unit_zero (S := S2048x256) hz2,
    View.ld_unit_zero (S := S1x256x2048) hz3, View.ld_unit_zero (S := S1x1x2048) hz3]
  obtain ⟨e00, e01, e02, e52, e10, e11, e20, e21, e30, e31, e32, e40, e41, e42, hb, hq⟩ := idx_facts t
  funext y
  obtain ⟨u, r, k, rfl⟩ : ∃ (u : Fin 1) (r : Fin 1024) (k : Fin 2048), y = ix3 u r k := ⟨y 0, y 1, y 2, eq_ix3 y⟩
  show k0_pay1 (iblk m c 0 t) (iblk m c 1 t) (iblk m c 2 t) (iblk m c 3 t) (iblk m c 4 t) (ix3 u r k)
      = Out (aX m c) (aSc m c) (aLeft m c) (aRight m c) (aBw m c) (aBb m c) (((cfg0.win 5).blk t).view.emb (ix3 u r k))
  have hu : u.val = 0 := by have := u.isLt; omega
  refine (point_value (aX m c) (aSc m c) (aLeft m c) (aRight m c) (aBw m c) (aBb m c) hL ⟨win0_5.index t (0 : Fin 3), hb⟩
    (fun r => ⟨win0_5.index t (1 : Fin 3) * 1024 + r.val, by have := r.isLt; omega⟩)
    (iblk m c 0 t) (iblk m c 1 t) (iblk m c 2 t) (iblk m c 3 t) (iblk m c 4 t) ?_ ?_ ?_ ?_ ?_ u r k).trans ?_
  · -- the block of `x`: batch `b`, rows `1024·q + r`
    intro r j
    show V m c main_arg0 (((cfg0.win 0).blk t).view.emb (ix3 (0 : Fin 1) r j)) = _
    rw [V_main_arg0]
    refine congrArg (aX m c) (funext fun a => Fin.ext ?_)
    match a with
    | ⟨0, _⟩ => show win0_0.index t (0 : Fin 3) * 1 + 1 * 0 = win0_5.index t (0 : Fin 3); omega
    | ⟨1, _⟩ => show win0_0.index t (1 : Fin 3) * 1024 + 1 * r.val = win0_5.index t (1 : Fin 3) * 1024 + r.val; omega
    | ⟨2, _⟩ => show win0_0.index t (2 : Fin 3) * 2048 + 1 * j.val = j.val; omega
  · -- the first weight, whole
    intro j p
    show V m c main_v1 (((cfg0.win 1).blk t).view.emb (ix2 j p)) = _
    have e : ((cfg0.win 1).blk t).view.emb (ix2 j p) = ix2 j p := funext fun a => Fin.ext (by
      match a with
      | ⟨0, _⟩ => show win0_1.index t (0 : Fin 2) * 2048 + 1 * j.val = j.val; omega
      | ⟨1, _⟩ => show win0_1.index t (1 : Fin 2) * 256 + 1 * p.val = p.val; omega)
    rw [e]
    exact w1_apply m c j p
  · -- the second weight, whole
    intro j p
    show V m c main_v4 (((cfg0.win 2).blk t).view.emb (ix2 j p)) = _
    have e : ((cfg0.win 2).blk t).view.emb (ix2 j p) = ix2 j p := funext fun a => Fin.ext (by
      match a with
      | ⟨0, _⟩ => show win0_2.index t (0 : Fin 2) * 2048 + 1 * j.val = j.val; omega
      | ⟨1, _⟩ => show win0_2.index t (1 : Fin 2) * 256 + 1 * p.val = p.val; omega)
    rw [e]
    exact w2_apply m c j p
  · -- block `b` of the scaled expansion matrix
    intro p k
    show V m c main_v10 (((cfg0.win 3).blk t).view.emb (ix3 (0 : Fin 1) p k)) = _
    have e : ((cfg0.win 3).blk t).view.emb (ix3 (0 : Fin 1) p k) = ix3 (⟨win0_5.index t (0 : Fin 3), hb⟩ : Fin 8) p k :=
      funext fun a => Fin.ext (by
        match a with
        | ⟨0, _⟩ => show win0_3.index t (0 : Fin 3) * 1 + 1 * 0 = win0_5.index t (0 : Fin 3); omega
        | ⟨1, _⟩ => show win0_3.index t (1 : Fin 3) * 256 + 1 * p.val = p.val; omega
        | ⟨2, _⟩ => show win0_3.index t (2 : Fin 3) * 2048 + 1 * k.val = k.val; omega)
    rw [e]
    exact e_apply m c _ p k
  · -- row `b` of the bias
    intro k
    show V m c main_v15 (((cfg0.win 4).blk t).view.emb (ix3 (0 : Fin 1) (0 : Fin 1) k)) = _
    have e : ((cfg0.win 4).blk t).view.emb (ix3 (0 : Fin 1) (0 : Fin 1) k) = ix3 (⟨win0_5.index t (0 : Fin 3), hb⟩ : Fin 8) (0 : Fin 1) k :=
      funext fun a => Fin.ext (by
        match a with
        | ⟨0, _⟩ => show win0_4.index t (0 : Fin 3) * 1 + 1 * 0 = win0_5.index t (0 : Fin 3); omega
        | ⟨1, _⟩ => show win0_4.index t (1 : Fin 3) * 1 + 1 * 0 = 0; omega
        | ⟨2, _⟩ => show win0_4.index t (2 : Fin 3) * 2048 + 1 * k.val = k.val; omega)
    rw [e]
    exact bias_apply m c _ (0 : Fin 1) k
  · -- the output block's place in the array
    show outAt _ _ _ _ _ _ _ _ _ = outAt _ _ _ _ _ _ _ _ _
    refine outAt_congr _ _ _ _ _ _ (Fin.ext ?_) (Fin.ext ?_) (Fin.ext ?_)
    · show win0_5.index t (0 : Fin 3) = win0_5.index t (0 : Fin 3) * 1 + 1 * u.val; omega
    · show win0_5.index t (1 : Fin 3) * 1024 + r.val = win0_5.index t (1 : Fin 3) * 1024 + 1 * r.val; omega
    · show k.val = win0_5.index t (2 : Fin 3) * 2048 + 1 * k.val; omega

/-- An index of the result array is in point `t`'s block iff each coordinate is in the block's range on its axis. -/
theorem mem_blk (t : Fin cfg0.N) (i : S8x4096x2048.Idx) :
    i ∈ ((cfg0.win 5).blk t).view.set ↔ ∀ a : Fin 3, win0_5.index t a * S1x1024x2048.size a ≤ (i a).val
      ∧ (i a).val < win0_5.index t a * S1x1024x2048.size a + S1x1024x2048.size a := by
  show i ∈ ((View.whole main_v16).slice (win0_5.rect t)).set ↔ _
  rw [View.set_slice_whole, Rect.mem_set_unit]
  exact Iff.rfl

/-- The output blocks tile the result array: index `(b, s, k)` lies in the block of point `(b, s / 1024)`. -/
theorem cover (i : S8x4096x2048.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 2048 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- The result array after the run is `Out` of the argument arrays. -/
theorem final (c : Dev nD) (hL : ∀ i, aLeft m c i ≠ ⊤ ∧ aLeft m c i ≠ ⊥) :
    (dats m 0 c).arrAt 5 cfg0.N = Out (aX m c) (aSc m c) (aLeft m c) (aRight m c) (aBw m c) (aBb m c) :=
  (dats m 0 c).arrAt_eq_of_cover 5 (Out (aX m c) (aSc m c) (aLeft m c) (aRight m c) (aBw m c) (aBb m c))
    (fun t _ => flushed_eq m c hL t) cover

/-- The kernel's run: the result array at `Out` of the arguments, the arguments unchanged. -/
theorem run (hL : ∀ (c : Dev nD) i, aLeft m c i ≠ ⊤ ∧ aLeft m c i ≠ ⊥) :
    θ_run defs (onTc (τ := τ) (main (F := Ideal))) ⟨m, fun _ => 0, ρ⟩ fun r => ∀ c : Dev nD,
      r.2.mem ((c : Thread nD τ).loc main_v16) = Out (aX m c) (aSc m c) (aLeft m c) (aRight m c) (aBw m c) (aBb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hL c)), (h c).2⟩)
    (Cert.KernelIdeal.Value.run_blocks m ρ)

end Cert.MetaLinear.Blocks

end
-- ==== Proof.Ref.lean ====
/-
  The reference computes `Out`.

  Read one operation at a time, the reference's result at `(b, s, k)` is the sum over `p` of the first contraction's
  entry `(b, s, p)` — itself the sum over `j` of `x[b,s,j] · left[p,j]` — times `sc[b,p]` (broadcast over the
  sequence axis) times `right[p,k]`, plus the bias row `(b, k)` broadcast over the sequence axis. Every operand index
  that the generated reading produces is a composite of coordinate selections; at an index given by its three
  coordinates each of them is again an index given by coordinates, and with those identifications the two sides are
  the same expression.
-/
import proofs.«107561_j4561255268487_2_alg».proof.Proof.Gen.ReferenceIdeal.Read
import proofs.«107561_j4561255268487_2_alg».proof.Proof.Spec

noncomputable section

namespace Cert.MetaLinear.Ref

open Cert.ReferenceIdeal Cert.ReferenceIdeal.Read Idealize.ShloMosaic Idealize.ShloMosaic.ValueIdx Cert.MetaLinear

/-- The reference's last stage is `Out` of the six arguments. -/
theorem reference_eq (x0 : FVec Ideal S8x4096x2048 .f32) (x1 : FVec Ideal S8x256 .f32) (x2 x3 x4 : FVec Ideal S256x2048 .f32)
    (x5 : FVec Ideal S2048 .f32) :
    val_main_v11 (F := Ideal) x0 x1 x2 x3 x4 x5 = Out x0 x1 x2 x3 x4 x5 := by
  funext i
  obtain ⟨b, s, k, rfl⟩ : ∃ (b : Fin 8) (s : Fin 4096) (k : Fin 2048), i = ix3 b s k := ⟨i 0, i 1, i 2, eq_ix3 i⟩
  rw [Out_apply, val_main_v11_apply, val_main_v4_apply, val_main_v10_apply, val_main_v9_apply, val_main_v8_apply,
    val_main_v5_apply, val_main_v7_apply, val_main_v6_apply]
  simp only [val_main_v3_apply, val_main_v0_apply, val_main_v2_apply, val_main_v1_apply]
  -- the operand indices, by coordinates
  have e0l : ∀ (p : Fin 256) (j : Fin 2048), lidx_main_v0 (lidx_main_v4 (ix3 b s k) p) j = ix3 b s j := fun p j =>
    funext fun a => by match a with | ⟨0, _⟩ => rfl | ⟨1, _⟩ => rfl | ⟨2, _⟩ => rfl
  have e0r : ∀ (p : Fin 256) (j : Fin 2048), ridx_main_v0 (lidx_main_v4 (ix3 b s k) p) j = ix2 p j := fun p j =>
    funext fun a => by match a with | ⟨0, _⟩ => rfl | ⟨1, _⟩ => rfl
  have e1 : ∀ p : Fin 256, idx_main_v1 (idx_main_v2 (lidx_main_v4 (ix3 b s k) p)) = ix2 b p := fun p =>
    funext fun a => by match a with | ⟨0, _⟩ => rfl | ⟨1, _⟩ => rfl
  have e4r : ∀ p : Fin 256, ridx_main_v4 (ix3 b s k) p = ix2 p k := fun p =>
    funext fun a => by match a with | ⟨0, _⟩ => rfl | ⟨1, _⟩ => rfl
  have e5l : ∀ p : Fin 256, lidx_main_v5 (idx_main_v9 (idx_main_v10 (ix3 b s k))) p = ix2 b p := fun p =>
    funext fun a => by match a with | ⟨0, _⟩ => rfl | ⟨1, _⟩ => rfl
  have e5r : ∀ p : Fin 256, ridx_main_v5 (idx_main_v9 (idx_main_v10 (ix3 b s k))) p = ix2 p k := fun p =>
    funext fun a => by match a with | ⟨0, _⟩ => rfl | ⟨1, _⟩ => rfl
  have e6 : idx_main_v6 (idx_main_v7 (idx_main_v9 (idx_main_v10 (ix3 b s k)))) = ix1 k :=
    funext fun a => by match a with | ⟨0, _⟩ => rfl
  simp only [e0l, e0r, e1, e4r, e5l, e5r, e6, Ideal.addf_def, Ideal.mulf_def]
  rfl

end Cert.MetaLinear.Ref

end
-- ==== Proof.Finite.lean ====
/-
  From the precondition to "every entry of `left` is a real number".

  The precondition is a conjunction of six tests, one per argument array, each saying that every entry `x` of the array
  has `|x| < +∞`. On the extended reals `|x| = max x (−x)`, which is `⊤` exactly when `x` is `⊤` or `⊥`; so an entry
  that passes the test is a real number. Only the third array's test is opened here: it is the one the two programs'
  agreement rests on.
-/
import proofs.«107561_j4561255268487_2_alg».proof.Pre_finite_inputs
import Idealize.ShloMosaic.Lib.ReduceAll
import Idealize.ShloMosaic.Lib.ValueIdx
import Idealize.ShloMosaic.PureOps.Ideal.Laws

noncomputable section

namespace Cert.MetaLinear.Finite

open Idealize.ShloMosaic Idealize.ShloMosaic.ValueIdx Cert.Pre_finite_inputs

instance : Subsingleton S_.Idx := ⟨fun a b => funext fun d => d.elim0⟩

/-- An extended real whose absolute value is below the pattern of `+∞` is neither infinity. -/
theorem real_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  constructor
  · rintro rfl
    simp at h
  · rintro rfl
    simp at h

/-- Under the precondition every entry of the third argument array is a real number. -/
theorem third_real [Cert.Pre_finite_inputs.Facts] (a0 : FVec Ideal S8x4096x2048 .f32) (a1 : FVec Ideal S8x256 .f32)
    (a2 a3 a4 : FVec Ideal S256x2048 .f32) (a5 : FVec Ideal S2048 .f32)
    (h : fn (F := Ideal) a0 a1 a2 a3 a4 a5 = fun _ => 1#1) (i : S256x2048.Idx) : a2 i ≠ ⊤ ∧ a2 i ≠ ⊥ := by
  have h0 := congrFun h ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨-, h4⟩ := IntOp.andi_eq_one.1 h3
  have h5 := Host.reduce_andi_all _ _ _ _ ix0 h4 i
  exact real_of_abs_lt (a2 i) h5

end Cert.MetaLinear.Finite

end
-- ==== Proof.lean ====
/-
  The layer `out = ((x · leftᵀ) ∘ sc) · right + (sc · bw + bb)`, computed two ways, gives one array on the extended reals.

  The reference contracts `x` with `left` over the feature axis, scales the 256 coordinates of every projected row by
  the per-batch factors `sc[b,·]`, contracts with `right` and adds the per-batch bias row `sc[b,·] · bw + bb`.

  The kernel prepares four arrays on the host — `leftᵀ`, `leftᵀ − leftᵀ`, the products `sc[b,p] · right[p,k]` and the
  bias rows — and then, block of 1024 rows by block, adds the projections of the rows on the two weight arrays,
  contracts the sum with the scaled `right` of the block's batch and adds that batch's bias row.

  Index by index the two results differ by the association of a triple product, which the extended reals have
  outright, and by the second projection, which vanishes because every entry of `left` is a real number: that is
  where the precondition is used, and the only place. The modules: `Spec` (the function `Out` and the algebraic law),
  `Ref` (the reference is `Out`), `HostSide` (the four prepared arrays read at an index), `Body` (the value a grid
  point stores), `Blocks` (the 32 blocks tile the result: the kernel's array is `Out`), `Finite` (the entries of
  `left` are real). Here: the five claims.
-/
import proofs.«107561_j4561255268487_2_alg».proof.Defs
import proofs.«107561_j4561255268487_2_alg».proof.Proof.Gen.Kernel
import proofs.«107561_j4561255268487_2_alg».proof.Proof.Gen.Kernel.Skeleton
import proofs.«107561_j4561255268487_2_alg».proof.Proof.Gen.Kernel.Launch
import proofs.«107561_j4561255268487_2_alg».proof.Proof.Gen.Kernel.Points
import proofs.«107561_j4561255268487_2_alg».proof.Proof.Gen.Kernel.Frame
import proofs.«107561_j4561255268487_2_alg».proof.Proof.Gen.KernelIdeal
import proofs.«107561_j4561255268487_2_alg».proof.Proof.Gen.KernelIdeal.Skeleton
import proofs.«107561_j4561255268487_2_alg».proof.Proof.Gen.KernelIdeal.Launch
import proofs.«107561_j4561255268487_2_alg».proof.Proof.Gen.KernelIdeal.Points
import proofs.«107561_j4561255268487_2_alg».proof.Proof.Gen.KernelIdeal.Frame
import proofs.«107561_j4561255268487_2_alg».proof.Proof.Gen.ReferenceIdeal
import proofs.«107561_j4561255268487_2_alg».proof.Proof.Gen.Pre_finite_inputs
import proofs.«107561_j4561255268487_2_alg».proof.Proof.Gen.KernelIdeal.Value
import proofs.«107561_j4561255268487_2_alg».proof.Proof.Gen.ReferenceIdeal.Run
import proofs.«107561_j4561255268487_2_alg».proof.Proof.Gen.ReferenceIdeal.Read
import proofs.«107561_j4561255268487_2_alg».proof.Proof.Blocks
import proofs.«107561_j4561255268487_2_alg».proof.Proof.Ref
import proofs.«107561_j4561255268487_2_alg».proof.Proof.Finite
import Idealize.ShloMosaic.Adequacy
import Idealize.ShloMosaic.Init

noncomputable section

namespace Cert.Proof

open Idealize.ShloMosaic Idealize.ShloMosaic.TcCoe Idealize.SL.Sem
open Cert.MetaLinear Cert.MetaLinear.HostSide

/-- The kernel as printed terminates without a fault and leaves its arguments as they were. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference is a straight line of host operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with `Out` of the six arguments: the kernel because its 32 blocks tile the result and each holds
    `Out` on its rows (the entries of `left` being real), the reference because its operations compose to `Out`. -/
theorem algebraic : Cert.algebraic_KernelIdeal_ReferenceIdeal := by
  intro m ρ m' ρ' hpre hagree
  have hL : ∀ (c : Dev Cert.KernelIdeal.nD) i, aLeft m c i ≠ ⊤ ∧ aLeft m c i ≠ ⊥ := fun c i =>
    Cert.MetaLinear.Finite.third_real _ _ _ _ _ _ (hpre c) i
  refine ⟨fun c => Out (aX m c) (aSc m c) (aLeft m c) (aRight m c) (aBw m c) (aBb m c),
    Cert.MetaLinear.Blocks.run m ρ hL, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.MetaLinear.Ref.reference_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_ref, preserves, algebraic⟩

end Cert.Proof

end
